-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  IdealRules.truncf_extf.Statement Cert.KernelIdeal.S2048x2048 .f32 .bf16
  ∧ IdealRules.truncf_extf.Statement Cert.KernelIdeal.S2048x2048 .f32 .bf16

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v9) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x4096 : Shape := ⟨2, ![4096, 4096]⟩
abbrev S_ : Shape := ⟨0, ![]⟩

class Facts : Prop where
  bcast_S_S4096x4096 : S_.BroadcastsInDim S4096x4096 (![] : Fin 0 → Fin S4096x4096.rank)
  reducesTo_S4096x4096_S_d0_1 : S4096x4096.ReducesTo [0, 1] S_
  h_S_ : 0 < S_.numel

variable [Facts]

def fn {F : FTy → Type} [FloatOps F] (main_arg0 : FVec F S4096x4096 .f32) (main_arg1 : FVec F S4096x4096 .f32) : IVec S_ 1 :=
  let main_v0 : FVec F S4096x4096 .f32 := Host.absf main_arg0
  let main_cst : FVec F S_ .f32 := constant S_ .f32 0x7F800000#32
  let main_v1 : FVec F S4096x4096 .f32 := broadcastInDim S4096x4096 ![] bcast_S_S4096x4096 main_cst
  let main_v2 : IVec S4096x4096 1 := cmpf .olt main_v0 main_v1
  let main_c : IVec S_ 1 := constantI S_ 1 1#1
  let main_v3 : IVec S_ 1 := (fun x v => Host.reduce IntOp.andi x v reducesTo_S4096x4096_S_d0_1 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  main_v8
-- ==== Kernel.lean ====
abbrev S4096x4096 : Shape := ⟨2, ![4096, 4096]⟩
abbrev S2048x512 : Shape := ⟨2, ![2048, 512]⟩
abbrev S512x2048 : Shape := ⟨2, ![512, 2048]⟩
abbrev S2048x2048 : Shape := ⟨2, ![2048, 2048]⟩

abbrev nBuf : Space → Nat
  | .hbm => 3
  | .vmem => 6
  | .smem => 0
  | _ => 0

abbrev bufTy : (tb : Table) → Fin (tcTables nBuf tb) → BufTy
  | .hbm, ⟨0, _⟩ => ⟨S4096x4096, .f32⟩
  | .hbm, ⟨1, _⟩ => ⟨S4096x4096, .f32⟩
  | .hbm, ⟨2, _⟩ => ⟨S4096x4096, .f32⟩
  | .local _ .vmem, ⟨0, _⟩ => ⟨S2048x512, .f32⟩
  | .local _ .vmem, ⟨1, _⟩ => ⟨S2048x512, .f32⟩
  | .local _ .vmem, ⟨2, _⟩ => ⟨S512x2048, .f32⟩
  | .local _ .vmem, ⟨3, _⟩ => ⟨S512x2048, .f32⟩
  | .local _ .vmem, ⟨4, _⟩ => ⟨S2048x2048, .f32⟩
  | .local _ .vmem, ⟨5, _⟩ => ⟨S2048x2048, .f32⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 8], ![false, false, false]⟩

def k0_cond1 (i : grid0.Coords) : BitVec 1 :=
  let arg2 : BitVec 32 := BitVec.ofNat 32 (i 2).val
  let c0_i32 : BitVec 32 := 0#32
  let v17 : BitVec 1 := Scalar.cmpi .eq arg2 c0_i32
  let v18 : BitVec 32 := Scalar.extui v17
  let c0_i32_4 : BitVec 32 := 0#32
  let v19 : BitVec 1 := Scalar.cmpi .ne v18 c0_i32_4
  v19

def k0_cond2 (i : grid0.Coords) : BitVec 1 :=
  let arg2 : BitVec 32 := BitVec.ofNat 32 (i 2).val
  let c0_i32_5 : BitVec 32 := 0#32
  let v20 : BitVec 1 := Scalar.cmpi .ne arg2 c0_i32_5
  let v21 : BitVec 32 := Scalar.extui v20
  let c0_i32_6 : BitVec 32 := 0#32
  let v22 : BitVec 1 := Scalar.cmpi .ne v21 c0_i32_6
  v22

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

class Facts₀ : Prop where
  inb_S2048x512_S2048x512_0_0 : ∀ a, (![0, 0] : Fin 2 → Nat) a + S2048x512.size a ≤ S2048x512.size a
  h_S2048x512 : 0 < S2048x512.numel
  bitsLt_bf16_f32 : FTy.bits .bf16 < FTy.bits .f32
  inb_S512x2048_S512x2048_0_0 : ∀ a, (![0, 0] : Fin 2 → Nat) a + S512x2048.size a ≤ S512x2048.size a
  h_S512x2048 : 0 < S512x2048.numel
  iota_S512x2048_d0_w32 : S512x2048.Iotas .tc 32 [0]
  iota_S512x2048_d1_w32 : S512x2048.Iotas .tc 32 [1]
  inb_S2048x2048_S2048x2048_0_0 : ∀ a, (![0, 0] : Fin 2 → Nat) a + S2048x2048.size a ≤ S2048x2048.size a
  h_S2048x2048 : 0 < S2048x2048.numel
  shapeCasts_S2048x2048_S2048x2048 : S2048x2048.ShapeCasts S2048x2048
  dot_S2048x512_S512x2048_S2048x2048_1_0_0_1_n_n_wf : DotDims.WF S2048x512 S512x2048 S2048x2048 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x512.size a ≤ S4096x4096.size a
  hwx0_0 : ∀ i : grid0.Coords, EltTy.bits .f32 = 32 ∨ (Rect.block (s := S4096x4096) S2048x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x2048.size a ≤ S4096x4096.size a
  hwx0_1 : ∀ i : grid0.Coords, EltTy.bits .f32 = 32 ∨ (Rect.block (s := S4096x4096) S512x2048.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x2048.size a ≤ S4096x4096.size a
  hwx0_2 : ∀ i : grid0.Coords, EltTy.bits .f32 = 32 ∨ (Rect.block (s := S4096x4096) S2048x2048.size (cc0_transform_2 i) (hinb0_2 i)).WholeWords (EltTy.packing .f32)

variable [Facts₀]

def dot_S2048x512_S512x2048_S2048x2048_1_0_0_1_n_n : DotDims S2048x512 S512x2048 S2048x2048 where
  lhsContracting := [1]
  rhsContracting := [0]
  lhsNonContracting := [0]
  rhsNonContracting := [1]
  lhsBatch := []
  rhsBatch := []
  wf := dot_S2048x512_S512x2048_S2048x2048_1_0_0_1_n_n_wf

abbrev win0_0 : Pipeline.Window sig grid0 :=
  Pipeline.Window.ofSpec (Memref.whole main_arg0) S2048x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S2048x2048.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond1 i == 1#1) && !(k0_cond2 i == 1#1) | ⟨_ + 3, h⟩ => absurd h (Nat.not_lt.2 (Nat.le_add_left _ _))

class Facts : Prop extends Facts₀ where

variable [Facts]
-- ==== ReferenceIdeal.lean ====
abbrev S4096x4096 : Shape := ⟨2, ![4096, 4096]⟩
abbrev S_ : Shape := ⟨0, ![]⟩

abbrev nBuf : Space → Nat
  | .hbm => 14
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x4096, .f32⟩
  | .hbm, ⟨2, _⟩ => ⟨S4096x4096, .i32⟩
  | .hbm, ⟨3, _⟩ => ⟨S4096x4096, .i32⟩
  | .hbm, ⟨4, _⟩ => ⟨S_, .i32⟩
  | .hbm, ⟨5, _⟩ => ⟨S4096x4096, .i32⟩
  | .hbm, ⟨6, _⟩ => ⟨S4096x4096, .i32⟩
  | .hbm, ⟨7, _⟩ => ⟨S4096x4096, .i1⟩
  | .hbm, ⟨8, _⟩ => ⟨S4096x4096, .f32⟩
  | .hbm, ⟨9, _⟩ => ⟨S_, .f32⟩
  | .hbm, ⟨10, _⟩ => ⟨S4096x4096, .f32⟩
  | .hbm, ⟨11, _⟩ => ⟨S4096x4096, .f32⟩
  | .hbm, ⟨12, _⟩ => ⟨S4096x4096, .f32⟩
  | .hbm, ⟨13, _⟩ => ⟨S4096x4096, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_c : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩

abbrev nD : Nat := 1
abbrev τ : Topo := Topo.v7x

variable {F : FTy → Type} [FloatOps F]

class Facts₀ : Prop where
  bcast_S_S4096x4096 : S_.BroadcastsInDim S4096x4096 (![] : Fin 0 → Fin S4096x4096.rank)
  dot_S4096x4096_S4096x4096_S4096x4096_1_0_0_1_n_n_wf : DotDims.WF S4096x4096 S4096x4096 S4096x4096 [1] [0] [0] [1] [] []

variable [Facts₀]

def dot_S4096x4096_S4096x4096_S4096x4096_1_0_0_1_n_n : DotDims S4096x4096 S4096x4096 S4096x4096 where
  lhsContracting := [1]
  rhsContracting := [0]
  lhsNonContracting := [0]
  rhsNonContracting := [1]
  lhsBatch := []
  rhsBatch := []
  wf := dot_S4096x4096_S4096x4096_S4096x4096_1_0_0_1_n_n_wf

class Facts : Prop extends Facts₀ where

variable [Facts]
-- ==== Proof.BitsSteps.lean ====
/-
  The kernel body, run once per kind of grid point.

  The grid is (2, 2, 8): a point is (row block, column block, K step), and the output block of a
  (row block, column block) pair stays in its staging buffer over the eight K steps. The body's two
  conditionals read only the K step: at step 0 the partial product is STORED into the output buffer,
  at steps 1 … 7 it is ADDED to what the buffer holds. Over the row-major numbering of the grid
  the K step of point `t` is `t % 8`, so "first step" is `t % 8 = 0`.

  For each of the two kinds this file runs the body on whole staging buffers and records what the
  run leaves in the output's buffer, as the list of the stores made (one store covering the block).
-/
import proofs.«170368_g87514253623357_cont_sun_m_359_32_alg».proof.Proof.Gen.Kernel.Frame
import proofs.«170368_g87514253623357_cont_sun_m_359_32_alg».proof.Proof.Gen.Kernel.Skeleton

set_option maxRecDepth 16384

noncomputable section

namespace Cert.Kernel.Acc

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! ## The two conditions over the grid -/

/-- The store branch is taken exactly at the first K step of each output block. -/
theorem first_iff : ∀ t : Fin cfg0.N, k0_cond1 (grid0.coords t) = 1#1 ↔ t.val % 8 = 0 :=
  (by decide +kernel : ∀ t : Fin grid0.N, k0_cond1 (grid0.coords t) = 1#1 ↔ t.val % 8 = 0)

/-- The accumulate branch is taken exactly at the later K steps. -/
theorem later_iff : ∀ t : Fin cfg0.N, k0_cond2 (grid0.coords t) = 1#1 ↔ ¬ t.val % 8 = 0 :=
  (by decide +kernel : ∀ t : Fin grid0.N, k0_cond2 (grid0.coords t) = 1#1 ↔ ¬ t.val % 8 = 0)

/-! ## The staging buffers the body is called with -/

/-- A staging buffer of the output window, through which its contents are stated. -/
abbrev outView : View sig .tc .vmem S2048x2048 .f32 := (Memref.whole cc0_stg2_0 : Memref sig .tc .vmem S2048x2048 .f32).view

abbrev xbuf (t : Fin cfg0.N) : Memref sig .tc .vmem S2048x512 .f32 := win0_0.stage (cfg0.slots t 0)
abbrev xbuf_whole (t : Fin cfg0.N) : (xbuf t).IsWhole := hstage0_0 ((cfg0.slots t 0).cast nbuf0_0)
abbrev wbuf (t : Fin cfg0.N) : Memref sig .tc .vmem S512x2048 .f32 := win0_1.stage (cfg0.slots t 1)
abbrev wbuf_whole (t : Fin cfg0.N) : (wbuf t).IsWhole := hstage0_1 ((cfg0.slots t 1).cast nbuf0_1)
abbrev obuf (t : Fin cfg0.N) : Memref sig .tc .vmem S2048x2048 .f32 := win0_2.stage (cfg0.slots t 2)
abbrev obuf_whole (t : Fin cfg0.N) : (obuf t).IsWhole := hstage0_2 ((cfg0.slots t 2).cast nbuf0_2)

/-! ## The body at a first K step -/

set_option maxHeartbeats 1000000 in
/-- At a first K step (the store branch taken, the accumulate branch not): with the x block `x` and the W block `w`
    in their buffers and the output buffer holding anything, the body runs to its end, leaves the two inputs as they
    were, and the output buffer written by the listed stores. -/
noncomputable def firstStep (c : Dev nD) (i : grid0.Coords)
    (a3 : Memref sig .tc .vmem S2048x512 .f32) (h3 : a3.IsWhole) (a4 : Memref sig .tc .vmem S512x2048 .f32) (h4 : a4.IsWhole)
    (a5 : Memref sig .tc .vmem S2048x2048 .f32) (h5 : a5.IsWhole)
    (hc1 : k0_cond1 i = 1#1) (hc2 : ¬ k0_cond2 i = 1#1)
    (x : Vec F S2048x512 .f32) (w : Vec F S512x2048 .f32) :
    { L : List (View.Piece (Elt F) S2048x2048 .f32) //
      ∀ (E : Set ℕ) (K : PUnit → sProp 𝕄),
        iprop(owns (c : Thread nD τ) a3 fullShare x ∗ owns (c : Thread nD τ) a4 fullShare w ∗ (∃ d, owns (c : Thread nD τ) a5 fullShare d)
            ∗ (iprop(owns (c : Thread nD τ) a3 fullShare x ∗ owns (c : Thread nD τ) a4 fullShare w
                ∗ (∃ f, a5.view.loc (c : Thread nD τ) ↦[a5.view.set]{fullShare} a5.view.writes (Elt F) f L)) -∗ K ⟨⟩))
          ⊢ wp frame (wpE (defs₀ (F := F)) Variants.none c none) E (cc0__matmul_zero_diag_kernel i a3 h3 a4 h4 a5 h5) K } := by
  refine ⟨?_, fun E K => ?run⟩
  case run =>
    simp only [cc0__matmul_zero_diag_kernel_eq_skeleton]; unfold cc0__matmul_zero_diag_kernel_skel
    unfold owns
    iintro ⟨⟨%f0, %hf0, H0⟩, ⟨%f1, %hf1, H1⟩, ⟨%d2, %f2, -, H2⟩, Hk⟩
    obtain rfl := h3.eq_unread hf0; obtain rfl := h4.eq_unread hf1
    sl_exec (disch := first | exact hc1 | exact hc2)
    sl_step
    iapply Hk
    isplitl [H0]
    · iexists _; isplitr; · ipureintro; exact h3.read_unread _
      iexact H0
    isplitl [H1]
    · iexists _; isplitr; · ipureintro; exact h4.read_unread _
      iexact H1
    iexists _; iexact H2

/-! ## The body at a later K step -/

set_option maxHeartbeats 1000000 in
/-- At a later K step (the store branch not taken, the accumulate branch taken): with the x block `x`, the W block
    `w` and the running block `acc` in their buffers, the body runs to its end, leaves the two inputs as they were, and
    the output buffer written by the listed stores. -/
noncomputable def laterStep (c : Dev nD) (i : grid0.Coords)
    (a3 : Memref sig .tc .vmem S2048x512 .f32) (h3 : a3.IsWhole) (a4 : Memref sig .tc .vmem S512x2048 .f32) (h4 : a4.IsWhole)
    (a5 : Memref sig .tc .vmem S2048x2048 .f32) (h5 : a5.IsWhole)
    (hc1 : ¬ k0_cond1 i = 1#1) (hc2 : k0_cond2 i = 1#1)
    (x : Vec F S2048x512 .f32) (w : Vec F S512x2048 .f32) (acc : Vec F S2048x2048 .f32) :
    { L : List (View.Piece (Elt F) S2048x2048 .f32) //
      ∀ (E : Set ℕ) (K : PUnit → sProp 𝕄),
        iprop(owns (c : Thread nD τ) a3 fullShare x ∗ owns (c : Thread nD τ) a4 fullShare w ∗ owns (c : Thread nD τ) a5 fullShare acc
            ∗ (iprop(owns (c : Thread nD τ) a3 fullShare x ∗ owns (c : Thread nD τ) a4 fullShare w
                ∗ (∃ f, a5.view.loc (c : Thread nD τ) ↦[a5.view.set]{fullShare} a5.view.writes (Elt F) f L)) -∗ K ⟨⟩))
          ⊢ wp frame (wpE (defs₀ (F := F)) Variants.none c none) E (cc0__matmul_zero_diag_kernel i a3 h3 a4 h4 a5 h5) K } := by
  refine ⟨?_, fun E K => ?run⟩
  case run =>
    simp only [cc0__matmul_zero_diag_kernel_eq_skeleton]; unfold cc0__matmul_zero_diag_kernel_skel
    unfold owns
    iintro ⟨⟨%f0, %hf0, H0⟩, ⟨%f1, %hf1, H1⟩, ⟨%f2, %hf2, H2⟩, Hk⟩
    obtain rfl := h3.eq_unread hf0; obtain rfl := h4.eq_unread hf1; obtain rfl := h5.eq_unread hf2
    sl_exec (disch := first | exact hc1 | exact hc2)
    sl_step
    iapply Hk
    isplitl [H0]
    · iexists _; isplitr; · ipureintro; exact h3.read_unread _
      iexact H0
    isplitl [H1]
    · iexists _; isplitr; · ipureintro; exact h4.read_unread _
      iexact H1
    iexists _; iexact H2

end Cert.Kernel.Acc

end
-- ==== Proof.BitsFrame.lean ====
/-
  The pipelined run of the kernel, from the body's two runs.

  The output block of a (row block, column block) pair is visited at eight consecutive grid points, one per K step,
  and written back to the result array after the last of them (the points with `t % 8 = 7`). What its staging
  buffer holds after point `t` is defined by recursion on `t`: at a first K step what the store branch leaves,
  at a later K step what the accumulate branch leaves over the contents of the point before. With this as the
  proof data the body meets its obligation at every point, so the whole program runs to its end, faults nowhere
  and leaves the two argument arrays as they were.
-/
import proofs.«170368_g87514253623357_cont_sun_m_359_32_alg».proof.Proof.BitsSteps

set_option maxRecDepth 16384

noncomputable section

namespace Cert.Kernel.Acc

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each kind of step leaves in the output buffer -/

/-- The one store of a first K step covers the output block. -/
theorem firstCover (c : Dev nD) (i : grid0.Coords)
    (a3 : Memref sig .tc .vmem S2048x512 .f32) (h3 : a3.IsWhole) (a4 : Memref sig .tc .vmem S512x2048 .f32) (h4 : a4.IsWhole)
    (a5 : Memref sig .tc .vmem S2048x2048 .f32) (h5 : a5.IsWhole)
    (hc1 : k0_cond1 i = 1#1) (hc2 : ¬ k0_cond2 i = 1#1)
    (x : Vec F S2048x512 .f32) (w : Vec F S512x2048 .f32) (y : S2048x2048.Idx) :
    ∃ pc ∈ (firstStep c i a3 h3 a4 h4 a5 h5 hc1 hc2 x w).1, y ∈ pc.1.set :=
  View.cover_of_tiledL (firstStep c i a3 h3 a4 h4 a5 h5 hc1 hc2 x w).1 S2048x2048.size (by sl_kernel_rfl) y

/-- What a first K step leaves in the output buffer. -/
def firstOut (c : Dev nD) (i : grid0.Coords)
    (a3 : Memref sig .tc .vmem S2048x512 .f32) (h3 : a3.IsWhole) (a4 : Memref sig .tc .vmem S512x2048 .f32) (h4 : a4.IsWhole)
    (a5 : Memref sig .tc .vmem S2048x2048 .f32) (h5 : a5.IsWhole)
    (hc1 : k0_cond1 i = 1#1) (hc2 : ¬ k0_cond2 i = 1#1)
    (x : Vec F S2048x512 .f32) (w : Vec F S512x2048 .f32) : Vec F S2048x2048 .f32 :=
  outView.read (Elt F) (outView.writes (Elt F) outView.junk (firstStep c i a3 h3 a4 h4 a5 h5 hc1 hc2 x w).1)

/-- The one store of a later K step covers the output block. -/
theorem laterCover (c : Dev nD) (i : grid0.Coords)
    (a3 : Memref sig .tc .vmem S2048x512 .f32) (h3 : a3.IsWhole) (a4 : Memref sig .tc .vmem S512x2048 .f32) (h4 : a4.IsWhole)
    (a5 : Memref sig .tc .vmem S2048x2048 .f32) (h5 : a5.IsWhole)
    (hc1 : ¬ k0_cond1 i = 1#1) (hc2 : k0_cond2 i = 1#1)
    (x : Vec F S2048x512 .f32) (w : Vec F S512x2048 .f32) (acc : Vec F S2048x2048 .f32) (y : S2048x2048.Idx) :
    ∃ pc ∈ (laterStep c i a3 h3 a4 h4 a5 h5 hc1 hc2 x w acc).1, y ∈ pc.1.set :=
  View.cover_of_tiledL (laterStep c i a3 h3 a4 h4 a5 h5 hc1 hc2 x w acc).1 S2048x2048.size (by sl_kernel_rfl) y

/-- What a later K step leaves in the output buffer, from the running block `acc`. -/
def laterOut (c : Dev nD) (i : grid0.Coords)
    (a3 : Memref sig .tc .vmem S2048x512 .f32) (h3 : a3.IsWhole) (a4 : Memref sig .tc .vmem S512x2048 .f32) (h4 : a4.IsWhole)
    (a5 : Memref sig .tc .vmem S2048x2048 .f32) (h5 : a5.IsWhole)
    (hc1 : ¬ k0_cond1 i = 1#1) (hc2 : k0_cond2 i = 1#1)
    (x : Vec F S2048x512 .f32) (w : Vec F S512x2048 .f32) (acc : Vec F S2048x2048 .f32) : Vec F S2048x2048 .f32 :=
  outView.read (Elt F) (outView.writes (Elt F) outView.junk (laterStep c i a3 h3 a4 h4 a5 h5 hc1 hc2 x w acc).1)

/-! ## The running block, point by point -/

/-- The conditions at a first K step. -/
theorem first_c1 (t : Fin cfg0.N) (h : t.val % 8 = 0) : k0_cond1 (grid0.coords t) = 1#1 := (first_iff t).mpr h
theorem first_c2 (t : Fin cfg0.N) (h : t.val % 8 = 0) : ¬ k0_cond2 (grid0.coords t) = 1#1 := fun h' => (later_iff t).mp h' h
/-- The conditions at a later K step. -/
theorem later_c1 (t : Fin cfg0.N) (h : ¬ t.val % 8 = 0) : ¬ k0_cond1 (grid0.coords t) = 1#1 := fun h' => h ((first_iff t).mp h')
theorem later_c2 (t : Fin cfg0.N) (h : ¬ t.val % 8 = 0) : k0_cond2 (grid0.coords t) = 1#1 := (later_iff t).mpr h

/-- What the output's staging buffer holds after the body at point `n`: at a first K step what the store leaves,
    at a later one what the accumulation leaves over the contents after point `n - 1`. -/
def accAt (c : Dev nD) : (n : ℕ) → n < cfg0.N → Vec F S2048x2048 .f32
  | 0, hn => firstOut c (grid0.coords ⟨0, hn⟩) (xbuf ⟨0, hn⟩) (xbuf_whole ⟨0, hn⟩) (wbuf ⟨0, hn⟩) (wbuf_whole ⟨0, hn⟩) (obuf ⟨0, hn⟩) (obuf_whole ⟨0, hn⟩)
      (first_c1 ⟨0, hn⟩ (Nat.zero_mod _)) (first_c2 ⟨0, hn⟩ (Nat.zero_mod _)) (iblk m c 0 ⟨0, hn⟩) (iblk m c 1 ⟨0, hn⟩)
  | n + 1, hn =>
    if h0 : (n + 1) % 8 = 0 then
      firstOut c (grid0.coords ⟨n + 1, hn⟩) (xbuf ⟨n + 1, hn⟩) (xbuf_whole ⟨n + 1, hn⟩) (wbuf ⟨n + 1, hn⟩) (wbuf_whole ⟨n + 1, hn⟩) (obuf ⟨n + 1, hn⟩) (obuf_whole ⟨n + 1, hn⟩)
        (first_c1 ⟨n + 1, hn⟩ h0) (first_c2 ⟨n + 1, hn⟩ h0) (iblk m c 0 ⟨n + 1, hn⟩) (iblk m c 1 ⟨n + 1, hn⟩)
    else
      laterOut c (grid0.coords ⟨n + 1, hn⟩) (xbuf ⟨n + 1, hn⟩) (xbuf_whole ⟨n + 1, hn⟩) (wbuf ⟨n + 1, hn⟩) (wbuf_whole ⟨n + 1, hn⟩) (obuf ⟨n + 1, hn⟩) (obuf_whole ⟨n + 1, hn⟩)
        (later_c1 ⟨n + 1, hn⟩ h0) (later_c2 ⟨n + 1, hn⟩ h0) (iblk m c 0 ⟨n + 1, hn⟩) (iblk m c 1 ⟨n + 1, hn⟩) (accAt c n (Nat.lt_of_succ_lt hn))

/-- The running block at a first K step. -/
theorem accAt_first (c : Dev nD) (t : Fin cfg0.N) (h0 : t.val % 8 = 0) :
    accAt m c t.val t.isLt = firstOut c (grid0.coords t) (xbuf t) (xbuf_whole t) (wbuf t) (wbuf_whole t) (obuf t) (obuf_whole t)
      (first_c1 t h0) (first_c2 t h0) (iblk m c 0 t) (iblk m c 1 t) := by
  obtain ⟨n, hn⟩ := t
  cases n with
  | zero => exact rfl
  | succ n => exact (dif_pos h0).trans rfl

/-- The running block at a later K step, over the point before. -/
theorem accAt_later (c : Dev nD) (t : Fin cfg0.N) (h0 : ¬ t.val % 8 = 0) :
    accAt m c t.val t.isLt = laterOut c (grid0.coords t) (xbuf t) (xbuf_whole t) (wbuf t) (wbuf_whole t) (obuf t) (obuf_whole t)
      (later_c1 t h0) (later_c2 t h0) (iblk m c 0 t) (iblk m c 1 t)
      (accAt m c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans rfl

/-! ## The proof data of the pipeline -/

/-- The proof data on core `c`: the arrays as the region finds them; after the body at point `t` each input's buffer
    at its block and the output's at the running block; nothing else owned beyond the scoped rest; nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => (accAt m c t.val t.isLt)
  Φ _ := Pipeline.ΦA spec0 c
  q _ := fullShare
  owed _ := 0

theorem A_eq (c : Dev nD) (w : Fin cfg0.W) : (dats m 0 c).A w = V m c (Pipeline.arrRef spec0 w) := by
  dsimp only [dats]

theorem after_x (c : Dev nD) (t : Fin cfg0.N) : (dats m 0 c).after 0 t = iblk m c 0 t := by dsimp only [dats]
theorem after_w (c : Dev nD) (t : Fin cfg0.N) : (dats m 0 c).after 1 t = iblk m c 1 t := by dsimp only [dats]
theorem after_o (c : Dev nD) (t : Fin cfg0.N) : (dats m 0 c).after 2 t = (accAt m c t.val t.isLt) := by dsimp only [dats]

/-- Each input's staging buffer holds its block when the body is called. -/
theorem before_x (c : Dev nD) (t : Fin cfg0.N) (d) : (dats m 0 c).before 0 t d = iblk m c 0 t :=
  before0_0_of m (dats m 0 c) (A_eq m c 0) (after_x m c) t d
theorem before_w (c : Dev nD) (t : Fin cfg0.N) (d) : (dats m 0 c).before 1 t d = iblk m c 1 t :=
  before0_1_of m (dats m 0 c) (A_eq m c 1) (after_w m c) t d

/-- The output window is idle nowhere: one of the two branches is taken at every point of the grid. -/
theorem out_live : ∀ i : grid0.Coords, cfg0.idle 2 i = false := by
  intro i
  show (!(k0_cond1 i == 1#1) && !(k0_cond2 i == 1#1)) = false
  have key : ∀ k : Fin 8, (!(Scalar.cmpi .ne (Scalar.extui (Scalar.cmpi .eq (BitVec.ofNat 32 k.val) 0#32)) 0#32 == 1#1)
      && !(Scalar.cmpi .ne (Scalar.extui (Scalar.cmpi .ne (BitVec.ofNat 32 k.val) 0#32)) 0#32 == 1#1)) = false := by decide
  exact key (i 2)

/-- At a later K step the output's buffer holds what the body left at the point before: the point is not the first,
    and the buffer was not written back in between (write-backs follow the last K step only). -/
theorem before_o_later (c : Dev nD) (t : Fin cfg0.N) (h0 : ¬ t.val % 8 = 0) (d) :
    (dats m 0 c).before 2 t d = (accAt m c (t.val - 1) (Nat.lt_of_le_of_lt (Nat.sub_le _ _) t.isLt)) := by
  have hN : t.val < 32 := lt_of_lt_of_eq t.isLt (show cfg0.N = 32 from N_0)
  rw [Dat.before_out_kept _ 2 rfl t (by omega) (Bool.eq_false_iff.mpr fun h => by have := (flush0_2 _).mp h; dsimp only at this; omega)
    out_live (fun _ _ => rfl)]
  dsimp only [dats]

/-! ## The body obligation -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (xbuf t) fullShare ((dats m 0 c).before 0 t d))
    ∗ (∃ d, owns (c : Thread nD τ) (wbuf t) fullShare ((dats m 0 c).before 1 t d))
    ∗ (∃ d, owns (c : Thread nD τ) (obuf t) fullShare ((dats m 0 c).before 2 t d)))

/-- and what it returns. -/
def bodyPost (c : Dev nD) (t : Fin cfg0.N) : sProp 𝕄 :=
  iprop((dats m 0 c).Φ t.succ ∗ (dats m 0 c).owesAt () t.succ
    ∗ owns (c : Thread nD τ) (xbuf t) fullShare ((dats m 0 c).after 0 t)
    ∗ owns (c : Thread nD τ) (wbuf t) fullShare ((dats m 0 c).after 1 t)
    ∗ owns (c : Thread nD τ) (obuf t) fullShare ((dats m 0 c).after 2 t))

set_option maxHeartbeats 800000 in
/-- The body at any point: the inputs' buffers hold their blocks; by the K step the point is of one of the two kinds,
    and at a later step the output's buffer holds the running block; so that kind's run applies. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_x, before_w]
  rw [show (dats m 0 c).Φ t.succ = (dats m 0 c).Φ t.castSucc from rfl,
    show (dats m 0 c).owesAt () t.succ = (dats m 0 c).owesAt () t.castSucc from rfl,
    after_x, after_w, after_o]
  by_cases h0 : t.val % 8 = 0
  · rw [accAt_first m c t h0]
    unfold firstOut
    iintro ⟨HΦ, Ho, ⟨%d0, H0⟩, ⟨%d1, H1⟩, ⟨%d2, H2⟩⟩
    iapply ((firstStep c (grid0.coords t) _ _ _ _ _ _ (first_c1 t h0) (first_c2 t h0) (iblk m c 0 t) (iblk m c 1 t)).2 Set.univ _)
    isplitl [H0]; · iexact H0
    isplitl [H1]; · iexact H1
    isplitl [H2]; · iexists _; iexact H2
    iintro ⟨H0, H1, ⟨%e2, H2⟩⟩
    isplitl [HΦ]; · iexact HΦ
    isplitl [Ho]; · iexact Ho
    isplitl [H0]; · iexact H0
    isplitl [H1]; · iexact H1
    unfold owns; iexists _; isplitr
    swap; · iexact H2
    ipureintro; exact View.read_writes_of_cover _ _ _ _ _ (firstCover c _ _ _ _ _ _ _ _ _ _ _)
  · rw [accAt_later m c t h0]
    simp only [before_o_later m c t h0]
    unfold laterOut
    iintro ⟨HΦ, Ho, ⟨%d0, H0⟩, ⟨%d1, H1⟩, ⟨%d2, H2⟩⟩
    iapply ((laterStep c (grid0.coords t) _ _ _ _ _ _ (later_c1 t h0) (later_c2 t h0) (iblk m c 0 t) (iblk m c 1 t) _).2 Set.univ _)
    isplitl [H0]; · iexact H0
    isplitl [H1]; · iexact H1
    isplitl [H2]; · iexact H2
    iintro ⟨H0, H1, ⟨%e2, H2⟩⟩
    isplitl [HΦ]; · iexact HΦ
    isplitl [Ho]; · iexact Ho
    isplitl [H0]; · iexact H0
    isplitl [H1]; · iexact H1
    unfold owns; iexists _; isplitr
    swap; · iexact H2
    ipureintro; exact View.read_writes_of_cover _ _ _ _ _ (laterCover c _ _ _ _ _ _ _ _ _ _ _ _)

/-- The body obligation, at every point. -/
theorem body_obligation (c : Dev nD) : BodyObligation (dats (F := F) m 0 c) (defs₀ (F := F)) Variants.none () Set.univ := fun t => by
  rw [bigSep_W0, bigSep_W0]
  beta_reduce
  rw [out_live (cfg0.grid.coords t)]
  exact sound_body m c t

/-! ## The run and the frame -/

set_option backward.isDefEq.respectTransparency.types false in
/-- Every weakly fair execution of the program terminates without a fault, every array of the pipeline ending at what
    the proof data computes and every other buffer as it was. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The program runs to its end and its two argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (A_eq m) (run_main m ρ)

end Cert.Kernel.Acc

end
-- ==== Proof.IdealSteps.lean ====
/-
  The kernel body, run once per kind of grid point.

  The grid is (2, 2, 8): a point is (row block, column block, K step), and the output block of a
  (row block, column block) pair stays in its staging buffer over the eight K steps. The body's two
  conditionals read only the K step: at step 0 the partial product is STORED into the output buffer,
  at steps 1 … 7 it is ADDED to what the buffer holds. Over the row-major numbering of the grid
  the K step of point `t` is `t % 8`, so "first step" is `t % 8 = 0`.

  For each of the two kinds this file runs the body on whole staging buffers and records what the
  run leaves in the output's buffer, as the list of the stores made (one store covering the block).
-/
import proofs.«170368_g87514253623357_cont_sun_m_359_32_alg».proof.Proof.Gen.KernelIdeal.Frame
import proofs.«170368_g87514253623357_cont_sun_m_359_32_alg».proof.Proof.Gen.KernelIdeal.Skeleton

set_option maxRecDepth 16384

noncomputable section

namespace Cert.KernelIdeal.Acc

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! ## The two conditions over the grid -/

/-- The store branch is taken exactly at the first K step of each output block. -/
theorem first_iff : ∀ t : Fin cfg0.N, k0_cond1 (grid0.coords t) = 1#1 ↔ t.val % 8 = 0 :=
  (by decide +kernel : ∀ t : Fin grid0.N, k0_cond1 (grid0.coords t) = 1#1 ↔ t.val % 8 = 0)

/-- The accumulate branch is taken exactly at the later K steps. -/
theorem later_iff : ∀ t : Fin cfg0.N, k0_cond2 (grid0.coords t) = 1#1 ↔ ¬ t.val % 8 = 0 :=
  (by decide +kernel : ∀ t : Fin grid0.N, k0_cond2 (grid0.coords t) = 1#1 ↔ ¬ t.val % 8 = 0)

/-! ## The staging buffers the body is called with -/

/-- A staging buffer of the output window, through which its contents are stated. -/
abbrev outView : View sig .tc .vmem S2048x2048 .f32 := (Memref.whole cc0_stg2_0 : Memref sig .tc .vmem S2048x2048 .f32).view

abbrev xbuf (t : Fin cfg0.N) : Memref sig .tc .vmem S2048x512 .f32 := win0_0.stage (cfg0.slots t 0)
abbrev xbuf_whole (t : Fin cfg0.N) : (xbuf t).IsWhole := hstage0_0 ((cfg0.slots t 0).cast nbuf0_0)
abbrev wbuf (t : Fin cfg0.N) : Memref sig .tc .vmem S512x2048 .f32 := win0_1.stage (cfg0.slots t 1)
abbrev wbuf_whole (t : Fin cfg0.N) : (wbuf t).IsWhole := hstage0_1 ((cfg0.slots t 1).cast nbuf0_1)
abbrev obuf (t : Fin cfg0.N) : Memref sig .tc .vmem S2048x2048 .f32 := win0_2.stage (cfg0.slots t 2)
abbrev obuf_whole (t : Fin cfg0.N) : (obuf t).IsWhole := hstage0_2 ((cfg0.slots t 2).cast nbuf0_2)

/-! ## The body at a first K step -/

set_option maxHeartbeats 1000000 in
/-- At a first K step (the store branch taken, the accumulate branch not): with the x block `x` and the W block `w`
    in their buffers and the output buffer holding anything, the body runs to its end, leaves the two inputs as they
    were, and the output buffer written by the listed stores. -/
noncomputable def firstStep (c : Dev nD) (i : grid0.Coords)
    (a3 : Memref sig .tc .vmem S2048x512 .f32) (h3 : a3.IsWhole) (a4 : Memref sig .tc .vmem S512x2048 .f32) (h4 : a4.IsWhole)
    (a5 : Memref sig .tc .vmem S2048x2048 .f32) (h5 : a5.IsWhole)
    (hc1 : k0_cond1 i = 1#1) (hc2 : ¬ k0_cond2 i = 1#1)
    (x : Vec F S2048x512 .f32) (w : Vec F S512x2048 .f32) :
    { L : List (View.Piece (Elt F) S2048x2048 .f32) //
      ∀ (E : Set ℕ) (K : PUnit → sProp 𝕄),
        iprop(owns (c : Thread nD τ) a3 fullShare x ∗ owns (c : Thread nD τ) a4 fullShare w ∗ (∃ d, owns (c : Thread nD τ) a5 fullShare d)
            ∗ (iprop(owns (c : Thread nD τ) a3 fullShare x ∗ owns (c : Thread nD τ) a4 fullShare w
                ∗ (∃ f, a5.view.loc (c : Thread nD τ) ↦[a5.view.set]{fullShare} a5.view.writes (Elt F) f L)) -∗ K ⟨⟩))
          ⊢ wp frame (wpE (defs₀ (F := F)) Variants.none c none) E (cc0__matmul_zero_diag_kernel i a3 h3 a4 h4 a5 h5) K } := by
  refine ⟨?_, fun E K => ?run⟩
  case run =>
    simp only [cc0__matmul_zero_diag_kernel_eq_skeleton]; unfold cc0__matmul_zero_diag_kernel_skel
    unfold owns
    iintro ⟨⟨%f0, %hf0, H0⟩, ⟨%f1, %hf1, H1⟩, ⟨%d2, %f2, -, H2⟩, Hk⟩
    obtain rfl := h3.eq_unread hf0; obtain rfl := h4.eq_unread hf1
    sl_exec (disch := first | exact hc1 | exact hc2)
    sl_step
    iapply Hk
    isplitl [H0]
    · iexists _; isplitr; · ipureintro; exact h3.read_unread _
      iexact H0
    isplitl [H1]
    · iexists _; isplitr; · ipureintro; exact h4.read_unread _
      iexact H1
    iexists _; iexact H2

/-! ## The body at a later K step -/

set_option maxHeartbeats 1000000 in
/-- At a later K step (the store branch not taken, the accumulate branch taken): with the x block `x`, the W block
    `w` and the running block `acc` in their buffers, the body runs to its end, leaves the two inputs as they were, and
    the output buffer written by the listed stores. -/
noncomputable def laterStep (c : Dev nD) (i : grid0.Coords)
    (a3 : Memref sig .tc .vmem S2048x512 .f32) (h3 : a3.IsWhole) (a4 : Memref sig .tc .vmem S512x2048 .f32) (h4 : a4.IsWhole)
    (a5 : Memref sig .tc .vmem S2048x2048 .f32) (h5 : a5.IsWhole)
    (hc1 : ¬ k0_cond1 i = 1#1) (hc2 : k0_cond2 i = 1#1)
    (x : Vec F S2048x512 .f32) (w : Vec F S512x2048 .f32) (acc : Vec F S2048x2048 .f32) :
    { L : List (View.Piece (Elt F) S2048x2048 .f32) //
      ∀ (E : Set ℕ) (K : PUnit → sProp 𝕄),
        iprop(owns (c : Thread nD τ) a3 fullShare x ∗ owns (c : Thread nD τ) a4 fullShare w ∗ owns (c : Thread nD τ) a5 fullShare acc
            ∗ (iprop(owns (c : Thread nD τ) a3 fullShare x ∗ owns (c : Thread nD τ) a4 fullShare w
                ∗ (∃ f, a5.view.loc (c : Thread nD τ) ↦[a5.view.set]{fullShare} a5.view.writes (Elt F) f L)) -∗ K ⟨⟩))
          ⊢ wp frame (wpE (defs₀ (F := F)) Variants.none c none) E (cc0__matmul_zero_diag_kernel i a3 h3 a4 h4 a5 h5) K } := by
  refine ⟨?_, fun E K => ?run⟩
  case run =>
    simp only [cc0__matmul_zero_diag_kernel_eq_skeleton]; unfold cc0__matmul_zero_diag_kernel_skel
    unfold owns
    iintro ⟨⟨%f0, %hf0, H0⟩, ⟨%f1, %hf1, H1⟩, ⟨%f2, %hf2, H2⟩, Hk⟩
    obtain rfl := h3.eq_unread hf0; obtain rfl := h4.eq_unread hf1; obtain rfl := h5.eq_unread hf2
    sl_exec (disch := first | exact hc1 | exact hc2)
    sl_step
    iapply Hk
    isplitl [H0]
    · iexists _; isplitr; · ipureintro; exact h3.read_unread _
      iexact H0
    isplitl [H1]
    · iexists _; isplitr; · ipureintro; exact h4.read_unread _
      iexact H1
    iexists _; iexact H2

end Cert.KernelIdeal.Acc

end
-- ==== Proof.IdealFrame.lean ====
/-
  The pipelined run of the kernel, from the body's two runs.

  The output block of a (row block, column block) pair is visited at eight consecutive grid points, one per K step,
  and written back to the result array after the last of them (the points with `t % 8 = 7`). What its staging
  buffer holds after point `t` is defined by recursion on `t`: at a first K step what the store branch leaves,
  at a later K step what the accumulate branch leaves over the contents of the point before. With this as the
  proof data the body meets its obligation at every point, so the whole program runs to its end, faults nowhere
  and leaves the two argument arrays as they were.
-/
import proofs.«170368_g87514253623357_cont_sun_m_359_32_alg».proof.Proof.IdealSteps

set_option maxRecDepth 16384

noncomputable section

namespace Cert.KernelIdeal.Acc

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each kind of step leaves in the output buffer -/

/-- The one store of a first K step covers the output block. -/
theorem firstCover (c : Dev nD) (i : grid0.Coords)
    (a3 : Memref sig .tc .vmem S2048x512 .f32) (h3 : a3.IsWhole) (a4 : Memref sig .tc .vmem S512x2048 .f32) (h4 : a4.IsWhole)
    (a5 : Memref sig .tc .vmem S2048x2048 .f32) (h5 : a5.IsWhole)
    (hc1 : k0_cond1 i = 1#1) (hc2 : ¬ k0_cond2 i = 1#1)
    (x : Vec F S2048x512 .f32) (w : Vec F S512x2048 .f32) (y : S2048x2048.Idx) :
    ∃ pc ∈ (firstStep c i a3 h3 a4 h4 a5 h5 hc1 hc2 x w).1, y ∈ pc.1.set :=
  View.cover_of_tiledL (firstStep c i a3 h3 a4 h4 a5 h5 hc1 hc2 x w).1 S2048x2048.size (by sl_kernel_rfl) y

/-- What a first K step leaves in the output buffer. -/
def firstOut (c : Dev nD) (i : grid0.Coords)
    (a3 : Memref sig .tc .vmem S2048x512 .f32) (h3 : a3.IsWhole) (a4 : Memref sig .tc .vmem S512x2048 .f32) (h4 : a4.IsWhole)
    (a5 : Memref sig .tc .vmem S2048x2048 .f32) (h5 : a5.IsWhole)
    (hc1 : k0_cond1 i = 1#1) (hc2 : ¬ k0_cond2 i = 1#1)
    (x : Vec F S2048x512 .f32) (w : Vec F S512x2048 .f32) : Vec F S2048x2048 .f32 :=
  outView.read (Elt F) (outView.writes (Elt F) outView.junk (firstStep c i a3 h3 a4 h4 a5 h5 hc1 hc2 x w).1)

/-- The one store of a later K step covers the output block. -/
theorem laterCover (c : Dev nD) (i : grid0.Coords)
    (a3 : Memref sig .tc .vmem S2048x512 .f32) (h3 : a3.IsWhole) (a4 : Memref sig .tc .vmem S512x2048 .f32) (h4 : a4.IsWhole)
    (a5 : Memref sig .tc .vmem S2048x2048 .f32) (h5 : a5.IsWhole)
    (hc1 : ¬ k0_cond1 i = 1#1) (hc2 : k0_cond2 i = 1#1)
    (x : Vec F S2048x512 .f32) (w : Vec F S512x2048 .f32) (acc : Vec F S2048x2048 .f32) (y : S2048x2048.Idx) :
    ∃ pc ∈ (laterStep c i a3 h3 a4 h4 a5 h5 hc1 hc2 x w acc).1, y ∈ pc.1.set :=
  View.cover_of_tiledL (laterStep c i a3 h3 a4 h4 a5 h5 hc1 hc2 x w acc).1 S2048x2048.size (by sl_kernel_rfl) y

/-- What a later K step leaves in the output buffer, from the running block `acc`. -/
def laterOut (c : Dev nD) (i : grid0.Coords)
    (a3 : Memref sig .tc .vmem S2048x512 .f32) (h3 : a3.IsWhole) (a4 : Memref sig .tc .vmem S512x2048 .f32) (h4 : a4.IsWhole)
    (a5 : Memref sig .tc .vmem S2048x2048 .f32) (h5 : a5.IsWhole)
    (hc1 : ¬ k0_cond1 i = 1#1) (hc2 : k0_cond2 i = 1#1)
    (x : Vec F S2048x512 .f32) (w : Vec F S512x2048 .f32) (acc : Vec F S2048x2048 .f32) : Vec F S2048x2048 .f32 :=
  outView.read (Elt F) (outView.writes (Elt F) outView.junk (laterStep c i a3 h3 a4 h4 a5 h5 hc1 hc2 x w acc).1)

/-! ## The running block, point by point -/

/-- The conditions at a first K step. -/
theorem first_c1 (t : Fin cfg0.N) (h : t.val % 8 = 0) : k0_cond1 (grid0.coords t) = 1#1 := (first_iff t).mpr h
theorem first_c2 (t : Fin cfg0.N) (h : t.val % 8 = 0) : ¬ k0_cond2 (grid0.coords t) = 1#1 := fun h' => (later_iff t).mp h' h
/-- The conditions at a later K step. -/
theorem later_c1 (t : Fin cfg0.N) (h : ¬ t.val % 8 = 0) : ¬ k0_cond1 (grid0.coords t) = 1#1 := fun h' => h ((first_iff t).mp h')
theorem later_c2 (t : Fin cfg0.N) (h : ¬ t.val % 8 = 0) : k0_cond2 (grid0.coords t) = 1#1 := (later_iff t).mpr h

/-- What the output's staging buffer holds after the body at point `n`: at a first K step what the store leaves,
    at a later one what the accumulation leaves over the contents after point `n - 1`. -/
def accAt (c : Dev nD) : (n : ℕ) → n < cfg0.N → Vec F S2048x2048 .f32
  | 0, hn => firstOut c (grid0.coords ⟨0, hn⟩) (xbuf ⟨0, hn⟩) (xbuf_whole ⟨0, hn⟩) (wbuf ⟨0, hn⟩) (wbuf_whole ⟨0, hn⟩) (obuf ⟨0, hn⟩) (obuf_whole ⟨0, hn⟩)
      (first_c1 ⟨0, hn⟩ (Nat.zero_mod _)) (first_c2 ⟨0, hn⟩ (Nat.zero_mod _)) (iblk m c 0 ⟨0, hn⟩) (iblk m c 1 ⟨0, hn⟩)
  | n + 1, hn =>
    if h0 : (n + 1) % 8 = 0 then
      firstOut c (grid0.coords ⟨n + 1, hn⟩) (xbuf ⟨n + 1, hn⟩) (xbuf_whole ⟨n + 1, hn⟩) (wbuf ⟨n + 1, hn⟩) (wbuf_whole ⟨n + 1, hn⟩) (obuf ⟨n + 1, hn⟩) (obuf_whole ⟨n + 1, hn⟩)
        (first_c1 ⟨n + 1, hn⟩ h0) (first_c2 ⟨n + 1, hn⟩ h0) (iblk m c 0 ⟨n + 1, hn⟩) (iblk m c 1 ⟨n + 1, hn⟩)
    else
      laterOut c (grid0.coords ⟨n + 1, hn⟩) (xbuf ⟨n + 1, hn⟩) (xbuf_whole ⟨n + 1, hn⟩) (wbuf ⟨n + 1, hn⟩) (wbuf_whole ⟨n + 1, hn⟩) (obuf ⟨n + 1, hn⟩) (obuf_whole ⟨n + 1, hn⟩)
        (later_c1 ⟨n + 1, hn⟩ h0) (later_c2 ⟨n + 1, hn⟩ h0) (iblk m c 0 ⟨n + 1, hn⟩) (iblk m c 1 ⟨n + 1, hn⟩) (accAt c n (Nat.lt_of_succ_lt hn))

/-- The running block at a first K step. -/
theorem accAt_first (c : Dev nD) (t : Fin cfg0.N) (h0 : t.val % 8 = 0) :
    accAt m c t.val t.isLt = firstOut c (grid0.coords t) (xbuf t) (xbuf_whole t) (wbuf t) (wbuf_whole t) (obuf t) (obuf_whole t)
      (first_c1 t h0) (first_c2 t h0) (iblk m c 0 t) (iblk m c 1 t) := by
  obtain ⟨n, hn⟩ := t
  cases n with
  | zero => exact rfl
  | succ n => exact (dif_pos h0).trans rfl

/-- The running block at a later K step, over the point before. -/
theorem accAt_later (c : Dev nD) (t : Fin cfg0.N) (h0 : ¬ t.val % 8 = 0) :
    accAt m c t.val t.isLt = laterOut c (grid0.coords t) (xbuf t) (xbuf_whole t) (wbuf t) (wbuf_whole t) (obuf t) (obuf_whole t)
      (later_c1 t h0) (later_c2 t h0) (iblk m c 0 t) (iblk m c 1 t)
      (accAt m c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans rfl

/-! ## The proof data of the pipeline -/

/-- The proof data on core `c`: the arrays as the region finds them; after the body at point `t` each input's buffer
    at its block and the output's at the running block; nothing else owned beyond the scoped rest; nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => (accAt m c t.val t.isLt)
  Φ _ := Pipeline.ΦA spec0 c
  q _ := fullShare
  owed _ := 0

theorem A_eq (c : Dev nD) (w : Fin cfg0.W) : (dats m 0 c).A w = V m c (Pipeline.arrRef spec0 w) := by
  dsimp only [dats]

theorem after_x (c : Dev nD) (t : Fin cfg0.N) : (dats m 0 c).after 0 t = iblk m c 0 t := by dsimp only [dats]
theorem after_w (c : Dev nD) (t : Fin cfg0.N) : (dats m 0 c).after 1 t = iblk m c 1 t := by dsimp only [dats]
theorem after_o (c : Dev nD) (t : Fin cfg0.N) : (dats m 0 c).after 2 t = (accAt m c t.val t.isLt) := by dsimp only [dats]

/-- Each input's staging buffer holds its block when the body is called. -/
theorem before_x (c : Dev nD) (t : Fin cfg0.N) (d) : (dats m 0 c).before 0 t d = iblk m c 0 t :=
  before0_0_of m (dats m 0 c) (A_eq m c 0) (after_x m c) t d
theorem before_w (c : Dev nD) (t : Fin cfg0.N) (d) : (dats m 0 c).before 1 t d = iblk m c 1 t :=
  before0_1_of m (dats m 0 c) (A_eq m c 1) (after_w m c) t d

/-- The output window is idle nowhere: one of the two branches is taken at every point of the grid. -/
theorem out_live : ∀ i : grid0.Coords, cfg0.idle 2 i = false := by
  intro i
  show (!(k0_cond1 i == 1#1) && !(k0_cond2 i == 1#1)) = false
  have key : ∀ k : Fin 8, (!(Scalar.cmpi .ne (Scalar.extui (Scalar.cmpi .eq (BitVec.ofNat 32 k.val) 0#32)) 0#32 == 1#1)
      && !(Scalar.cmpi .ne (Scalar.extui (Scalar.cmpi .ne (BitVec.ofNat 32 k.val) 0#32)) 0#32 == 1#1)) = false := by decide
  exact key (i 2)

/-- At a later K step the output's buffer holds what the body left at the point before: the point is not the first,
    and the buffer was not written back in between (write-backs follow the last K step only). -/
theorem before_o_later (c : Dev nD) (t : Fin cfg0.N) (h0 : ¬ t.val % 8 = 0) (d) :
    (dats m 0 c).before 2 t d = (accAt m c (t.val - 1) (Nat.lt_of_le_of_lt (Nat.sub_le _ _) t.isLt)) := by
  have hN : t.val < 32 := lt_of_lt_of_eq t.isLt (show cfg0.N = 32 from N_0)
  rw [Dat.before_out_kept _ 2 rfl t (by omega) (Bool.eq_false_iff.mpr fun h => by have := (flush0_2 _).mp h; dsimp only at this; omega)
    out_live (fun _ _ => rfl)]
  dsimp only [dats]

/-! ## The body obligation -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (xbuf t) fullShare ((dats m 0 c).before 0 t d))
    ∗ (∃ d, owns (c : Thread nD τ) (wbuf t) fullShare ((dats m 0 c).before 1 t d))
    ∗ (∃ d, owns (c : Thread nD τ) (obuf t) fullShare ((dats m 0 c).before 2 t d)))

/-- and what it returns. -/
def bodyPost (c : Dev nD) (t : Fin cfg0.N) : sProp 𝕄 :=
  iprop((dats m 0 c).Φ t.succ ∗ (dats m 0 c).owesAt () t.succ
    ∗ owns (c : Thread nD τ) (xbuf t) fullShare ((dats m 0 c).after 0 t)
    ∗ owns (c : Thread nD τ) (wbuf t) fullShare ((dats m 0 c).after 1 t)
    ∗ owns (c : Thread nD τ) (obuf t) fullShare ((dats m 0 c).after 2 t))

set_option maxHeartbeats 800000 in
/-- The body at any point: the inputs' buffers hold their blocks; by the K step the point is of one of the two kinds,
    and at a later step the output's buffer holds the running block; so that kind's run applies. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_x, before_w]
  rw [show (dats m 0 c).Φ t.succ = (dats m 0 c).Φ t.castSucc from rfl,
    show (dats m 0 c).owesAt () t.succ = (dats m 0 c).owesAt () t.castSucc from rfl,
    after_x, after_w, after_o]
  by_cases h0 : t.val % 8 = 0
  · rw [accAt_first m c t h0]
    unfold firstOut
    iintro ⟨HΦ, Ho, ⟨%d0, H0⟩, ⟨%d1, H1⟩, ⟨%d2, H2⟩⟩
    iapply ((firstStep c (grid0.coords t) _ _ _ _ _ _ (first_c1 t h0) (first_c2 t h0) (iblk m c 0 t) (iblk m c 1 t)).2 Set.univ _)
    isplitl [H0]; · iexact H0
    isplitl [H1]; · iexact H1
    isplitl [H2]; · iexists _; iexact H2
    iintro ⟨H0, H1, ⟨%e2, H2⟩⟩
    isplitl [HΦ]; · iexact HΦ
    isplitl [Ho]; · iexact Ho
    isplitl [H0]; · iexact H0
    isplitl [H1]; · iexact H1
    unfold owns; iexists _; isplitr
    swap; · iexact H2
    ipureintro; exact View.read_writes_of_cover _ _ _ _ _ (firstCover c _ _ _ _ _ _ _ _ _ _ _)
  · rw [accAt_later m c t h0]
    simp only [before_o_later m c t h0]
    unfold laterOut
    iintro ⟨HΦ, Ho, ⟨%d0, H0⟩, ⟨%d1, H1⟩, ⟨%d2, H2⟩⟩
    iapply ((laterStep c (grid0.coords t) _ _ _ _ _ _ (later_c1 t h0) (later_c2 t h0) (iblk m c 0 t) (iblk m c 1 t) _).2 Set.univ _)
    isplitl [H0]; · iexact H0
    isplitl [H1]; · iexact H1
    isplitl [H2]; · iexact H2
    iintro ⟨H0, H1, ⟨%e2, H2⟩⟩
    isplitl [HΦ]; · iexact HΦ
    isplitl [Ho]; · iexact Ho
    isplitl [H0]; · iexact H0
    isplitl [H1]; · iexact H1
    unfold owns; iexists _; isplitr
    swap; · iexact H2
    ipureintro; exact View.read_writes_of_cover _ _ _ _ _ (laterCover c _ _ _ _ _ _ _ _ _ _ _ _)

/-- The body obligation, at every point. -/
theorem body_obligation (c : Dev nD) : BodyObligation (dats (F := F) m 0 c) (defs₀ (F := F)) Variants.none () Set.univ := fun t => by
  rw [bigSep_W0, bigSep_W0]
  beta_reduce
  rw [out_live (cfg0.grid.coords t)]
  exact sound_body m c t

/-! ## The run and the frame -/

set_option backward.isDefEq.respectTransparency.types false in
/-- Every weakly fair execution of the program terminates without a fault, every array of the pipeline ending at what
    the proof data computes and every other buffer as it was. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The program runs to its end and its two argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (A_eq m) (run_main m ρ)

end Cert.KernelIdeal.Acc

end
-- ==== Proof.ZeroDiagSpec.lean ====
/-
  The mathematics of the zero-diagonal product, with no program in sight.

  For matrices `X` and `W` of extended reals, both 4096 × 4096, the result at (r, j) is
      ∑ₖ X(r, k) · W°(k, j),        W°(k, j) = 0 if k = j, W(k, j) otherwise.
  Two facts are proved here.
  * The sum over the 4096 values of k is the sum over eight consecutive blocks of 512: addition on the extended
    reals is commutative and associative, so no finiteness is needed.
  * Both programs compute W° from W by a mask of 32-bit words. One compares `512·s + c` with `2048·n + q` as words
    and selects zero on equality; the other multiplies by `1 − [k = j]`. The words involved are below 2³², so a
    word equality is the equality of the numbers; and on the extended reals `w · (1 − 1) = w · 0 = 0` and
    `w · (1 − 0) = w` for EVERY w, infinite ones included.
-/
import Idealize.ShloMosaic.PureOps.Ideal
import Idealize.ShloMosaic.PureOps.Ideal.Laws
import Idealize.ShloMosaic.PureOps.IdealRules
import Idealize.ShloMosaic.Lib.ValueIdx

noncomputable section

namespace Cert.ZeroDiag

open Idealize.ShloMosaic Idealize.ShloMosaic.ValueIdx

/-- A 4096 × 4096 matrix of extended reals. -/
abbrev Mat := (⟨2, ![4096, 4096]⟩ : Shape).Idx → EReal

/-- `W` with its diagonal zeroed, at row `k` and column `j`. -/
def offDiag (W : Mat) (k j : Fin 4096) : EReal := if k.val = j.val then 0 else W (ix2 k j)

/-- The product of `X` with the zero-diagonal `W`, at row `r` and column `j`. -/
def prodAt (X W : Mat) (r j : Fin 4096) : EReal := ∑ k : Fin 4096, X (ix2 r k) * offDiag W k j

/-- The product as a matrix. -/
def prod (X W : Mat) : Mat := fun i => prodAt X W ⟨(i 0).val, idx2_lt0 i⟩ ⟨(i 1).val, idx2_lt1 i⟩

theorem prod_ix2 (X W : Mat) (r j : Fin 4096) : prod X W (ix2 r j) = prodAt X W r j := rfl

/-! ## Eight blocks of 512 -/

/-- Position `c` of K block `a`. -/
def kpos (a : Fin 8) (c : Fin 512) : Fin 4096 := ⟨512 * a.val + c.val, by have := a.isLt; have := c.isLt; omega⟩

/-- A sum over the 4096 positions, block by block. -/
theorem sum_blocks {M : Type*} [AddCommMonoid M] (f : Fin 4096 → M) :
    ∑ k : Fin 4096, f k = ∑ a : Fin 8, ∑ c : Fin 512, f (kpos a c) := by
  rw [← Fintype.sum_prod_type']
  refine (Fintype.sum_equiv (finProdFinEquiv : Fin 8 × Fin 512 ≃ Fin (8 * 512)) (fun p => f (kpos p.1 p.2)) f (fun p => ?_)).symm
  refine congrArg f (Fin.ext ?_)
  show 512 * p.1.val + p.2.val = p.2.val + 512 * p.1.val
  omega

/-- The product, block by block. -/
theorem prodAt_blocks (X W : Mat) (r j : Fin 4096) :
    prodAt X W r j = ∑ a : Fin 8, ∑ c : Fin 512, X (ix2 r (kpos a c)) * offDiag W (kpos a c) j :=
  sum_blocks _

/-! ## The masks -/

/-- Two numbers below 2³² are equal as 32-bit words exactly when they are equal. -/
theorem word_beq (a b : ℕ) (ha : a < 2 ^ 32) (hb : b < 2 ^ 32) :
    (BitVec.ofNat 32 a == BitVec.ofNat 32 b) = decide (a = b) := by
  by_cases h : a = b
  · subst h; simp
  · rw [decide_eq_false h]
    apply Bool.eq_false_iff.mpr
    intro he
    have h' := congrArg BitVec.toNat (beq_iff_eq.mp he)
    rw [BitVec.toNat_ofNat, BitVec.toNat_ofNat, Nat.mod_eq_of_lt ha, Nat.mod_eq_of_lt hb] at h'
    exact h h'

/-- The kernel's compare of a row number `s · 512 + c` with a column number `n · 2048 + q`, as words. -/
theorem kernel_mask (s c n q : ℕ) (hs : s < 8) (hc : c < 512) (hn : n < 2) (hq : q < 2048) :
    IntOp.cmpi .eq (IntOp.addi (Scalar.muli (BitVec.ofNat 32 s) 512#32) (BitVec.ofNat 32 c))
        (IntOp.addi (Scalar.muli (BitVec.ofNat 32 n) 2048#32) (BitVec.ofNat 32 q))
      = BitVec.ofBool (decide (512 * s + c = 2048 * n + q)) := by
  unfold IntOp.cmpi IntOp.addi Scalar.muli IntOp.muli
  show BitVec.ofBool (BitVec.ofNat 32 s * BitVec.ofNat 32 512 + BitVec.ofNat 32 c == BitVec.ofNat 32 n * BitVec.ofNat 32 2048 + BitVec.ofNat 32 q) = _
  rw [← BitVec.ofNat_mul, ← BitVec.ofNat_mul, ← BitVec.ofNat_add, ← BitVec.ofNat_add,
    word_beq _ _ (by omega) (by omega)]
  congr 1
  apply decide_eq_decide.mpr
  omega

/-- The kernel's masked weight: zero where the words agree, the weight elsewhere. -/
theorem kernel_select (p : Prop) [Decidable p] (w : EReal) :
    Scalar.select (BitVec.ofBool (decide p)) (Ideal.ofBits .f32 0x00000000#32) w = if p then 0 else w := by
  by_cases h : p
  · simp [Scalar.select, h, Ideal.ofBits_zero_f32]
  · simp [Scalar.select, h]

/-- The reference's compare of a row number `k + 0` with a column number `j`, as words. -/
theorem host_mask (k j : ℕ) (hk : k < 4096) (hj : j < 4096) :
    IntOp.cmpi .eq (IntOp.addi (BitVec.ofNat 32 k) 0#32) (BitVec.ofNat 32 j) = BitVec.ofBool (decide (k = j)) := by
  unfold IntOp.cmpi IntOp.addi
  show BitVec.ofBool (BitVec.ofNat 32 k + 0#32 == BitVec.ofNat 32 j) = _
  rw [BitVec.add_zero, word_beq _ _ (by omega) (by omega)]

/-- The reference's masked weight: `w · (1 − [k = j])` is zero on the diagonal and `w` off it, for every extended real `w`. -/
theorem host_factor (p : Prop) [Decidable p] (w : EReal) :
    w * (Ideal.ofBits .f32 0x3F800000#32 - FloatOps.uitofp (F := Ideal) .f32 (BitVec.ofBool (decide p))) = if p then 0 else w := by
  have one : Ideal.ofBits .f32 0x3F800000#32 = 1 := IdealRules.sign_bit.ideal_onePat .f32
  rw [one]
  show w * (1 - (((BitVec.ofBool (decide p)).toNat : ℝ) : EReal)) = _
  by_cases h : p
  · have e : ((1 : EReal) - (((1 : ℕ) : ℝ) : EReal)) = 0 := by
      rw [show ((1 : EReal)) = ((1 : ℝ) : EReal) from rfl, ← EReal.coe_sub]; norm_num
    rw [if_pos h, decide_eq_true h]
    show w * (1 - (((1 : ℕ) : ℝ) : EReal)) = 0
    rw [e, mul_zero]
  · have e : ((1 : EReal) - (((0 : ℕ) : ℝ) : EReal)) = 1 := by
      rw [show ((1 : EReal)) = ((1 : ℝ) : EReal) from rfl, ← EReal.coe_sub]; norm_num
    rw [if_neg h, decide_eq_false h]
    show w * (1 - (((0 : ℕ) : ℝ) : EReal)) = w
    rw [e, mul_one]

end Cert.ZeroDiag

end
-- ==== Proof.IdealValue.lean ====
/-
  What the kernel's result array holds at the end: the zero-diagonal product.

  * A first K step leaves the partial product of its x block and its masked W block in the output's buffer; a later
    K step leaves the buffer's contents plus its partial product (each is the step's one store, which covers the block).
  * At an index (p, q) of the block, the partial product of K step `s` of column block `n` is
    ∑_{c < 512} x(p, c) · (0 if 512·s + c = 2048·n + q, else w(c, q)): the matrix unit's product into a zero accumulator
    is the plain sum at the ideal instance, the change of format is the identity, and the mask compares two numbers
    below 2³² as words.
  * By induction on the grid point, the buffer after point `t` holds the sum of the partial products of the K steps
    `0 … t % 8` of `t`'s output block; so a point with `t % 8 = 7`, where the block is written back, writes the sum over
    all eight K steps, which is the sum over all 4096 values of k: the zero-diagonal product read through the block.
  * The blocks written back tile the 4096 × 4096 result array.
-/
import proofs.«170368_g87514253623357_cont_sun_m_359_32_alg».proof.Proof.IdealFrame
import proofs.«170368_g87514253623357_cont_sun_m_359_32_alg».proof.Proof.ZeroDiagSpec
import Idealize.ShloMosaic.Lib.Pipeline.Value
import Idealize.ShloMosaic.Lib.ValueIdx
import Idealize.ShloMosaic.PureOps.Ideal.Laws

set_option maxRecDepth 16384

noncomputable section

namespace Cert.KernelIdeal.Acc

open Idealize.ShloMosaic Idealize.ShloMosaic.TcCoe Idealize.ShloMosaic.Tactic Idealize.SL.Sem
open Idealize.ShloMosaic.Pipeline (Dat)
open Idealize.ShloMosaic.ValueIdx
open Cert.KernelIdeal Cert.KernelIdeal.Gen Cert.ZeroDiag

/-! ## The two kinds of step, as values -/

section AnyInstance
variable {F : FTy → Type} [FloatOps F]

theorem hz : (![0, 0] : Fin 2 → Nat) = fun _ => 0 := funext fun a => by fin_cases a <;> rfl

/-- A first K step leaves the step's partial product. -/
theorem firstOut_eq (c : Dev nD) (i : grid0.Coords)
    (a3 : Memref sig .tc .vmem S2048x512 .f32) (h3 : a3.IsWhole) (a4 : Memref sig .tc .vmem S512x2048 .f32) (h4 : a4.IsWhole)
    (a5 : Memref sig .tc .vmem S2048x2048 .f32) (h5 : a5.IsWhole)
    (hc1 : k0_cond1 i = 1#1) (hc2 : ¬ k0_cond2 i = 1#1)
    (x : Vec F S2048x512 .f32) (w : Vec F S512x2048 .f32) :
    firstOut c i a3 h3 a4 h4 a5 h5 hc1 hc2 x w = k0_pay2 i x w := by
  unfold firstOut
  rw [View.read_writes_eq_canon _ _ _ (firstCover c i a3 h3 a4 h4 a5 h5 hc1 hc2 x w)]
  unfold firstStep
  dsimp only
  rw [View.canon_unit_zero hz]
  simp only [View.readAt_eq_ld, h3.read_unread, h4.read_unread, View.ld_unit_zero (S := S2048x512) hz,
    View.ld_unit_zero (S := S512x2048) hz]

/-- A later K step leaves the running block plus the step's partial product. -/
theorem laterOut_eq (c : Dev nD) (i : grid0.Coords)
    (a3 : Memref sig .tc .vmem S2048x512 .f32) (h3 : a3.IsWhole) (a4 : Memref sig .tc .vmem S512x2048 .f32) (h4 : a4.IsWhole)
    (a5 : Memref sig .tc .vmem S2048x2048 .f32) (h5 : a5.IsWhole)
    (hc1 : ¬ k0_cond1 i = 1#1) (hc2 : k0_cond2 i = 1#1)
    (x : Vec F S2048x512 .f32) (w : Vec F S512x2048 .f32) (acc : Vec F S2048x2048 .f32) :
    laterOut c i a3 h3 a4 h4 a5 h5 hc1 hc2 x w acc = k0_pay3 i x w acc := by
  unfold laterOut
  rw [View.read_writes_eq_canon _ _ _ (laterCover c i a3 h3 a4 h4 a5 h5 hc1 hc2 x w acc)]
  unfold laterStep
  dsimp only
  rw [View.canon_unit_zero hz]
  simp only [View.readAt_eq_ld, h3.read_unread, h4.read_unread, h5.read_unread, View.ld_unit_zero (S := S2048x512) hz,
    View.ld_unit_zero (S := S512x2048) hz, View.ld_unit_zero (S := S2048x2048) hz]

end AnyInstance

/-! ## The partial product of one K step, at an index -/

local notation "D" => dot_S2048x512_S512x2048_S2048x2048_1_0_0_1_n_n

theorem lhs_row (j : S2048x2048.Idx) (k : dot_S2048x512_S512x2048_S2048x2048_1_0_0_1_n_n.contr.Idx) :
    (dot_S2048x512_S512x2048_S2048x2048_1_0_0_1_n_n.lhsIdx j k 0).val = (j 0).val := by
  unfold DotDims.lhsIdx
  rw [dif_neg (show ¬(0 : Fin S2048x512.rank) ∈ dot_S2048x512_S512x2048_S2048x2048_1_0_0_1_n_n.lhsBatch by decide),
    dif_pos (show (0 : Fin S2048x512.rank) ∈ dot_S2048x512_S512x2048_S2048x2048_1_0_0_1_n_n.lhsNonContracting by decide)]
  rfl

theorem rhs_col (j : S2048x2048.Idx) (k : dot_S2048x512_S512x2048_S2048x2048_1_0_0_1_n_n.contr.Idx) :
    (dot_S2048x512_S512x2048_S2048x2048_1_0_0_1_n_n.rhsIdx j k 1).val = (j 1).val := by
  unfold DotDims.rhsIdx
  rw [dif_neg (show ¬(1 : Fin S512x2048.rank) ∈ dot_S2048x512_S512x2048_S2048x2048_1_0_0_1_n_n.rhsBatch by decide),
    dif_pos (show (1 : Fin S512x2048.rank) ∈ dot_S2048x512_S512x2048_S2048x2048_1_0_0_1_n_n.rhsNonContracting by decide)]
  rfl

/-- The partial product of K step `i 2` of column block `i 1`, at row `p` and column `q` of the block. -/
theorem pay1_apply (i : grid0.Coords) (x : Vec Ideal S2048x512 .f32) (w : Vec Ideal S512x2048 .f32) (p q : Fin 2048) :
    k0_pay1 (F := Ideal) i x w (ix2 p q)
      = ∑ cc : Fin 512, x (ix2 p cc) * (if 512 * (i 2).val + cc.val = 2048 * (i 1).val + q.val then 0 else w (ix2 cc q)) := by
  unfold k0_pay1
  dsimp only
  refine (Ideal.matmul_constant_zero_apply dot_S2048x512_S512x2048_S2048x2048_1_0_0_1_n_n none _ _ (ix2 p q)).trans ?_
  rw [← Equiv.sum_comp (contrEquiv1 dot_S2048x512_S512x2048_S2048x2048_1_0_0_1_n_n 512 rfl rfl).symm]
  refine Finset.sum_congr rfl fun cc _ => ?_
  have hk := contrEquiv1_symm_val dot_S2048x512_S512x2048_S2048x2048_1_0_0_1_n_n 512 rfl rfl cc
  have el : dot_S2048x512_S512x2048_S2048x2048_1_0_0_1_n_n.lhsIdx (ix2 p q) ((contrEquiv1 dot_S2048x512_S512x2048_S2048x2048_1_0_0_1_n_n 512 rfl rfl).symm cc) = ix2 p cc :=
    funext fun a => Fin.ext (by
      match a with
      | ⟨0, _⟩ => exact lhs_row _ _
      | ⟨1, _⟩ => exact (dot_S2048x512_S512x2048_S2048x2048_1_0_0_1_n_n.lhsIdx_val_of_single rfl _ _).trans hk)
  have er : dot_S2048x512_S512x2048_S2048x2048_1_0_0_1_n_n.rhsIdx (ix2 p q) ((contrEquiv1 dot_S2048x512_S512x2048_S2048x2048_1_0_0_1_n_n 512 rfl rfl).symm cc) = ix2 cc q :=
    funext fun a => Fin.ext (by
      match a with
      | ⟨0, _⟩ => exact (dot_S2048x512_S512x2048_S2048x2048_1_0_0_1_n_n.rhsIdx_val_of_single rfl _ _).trans hk
      | ⟨1, _⟩ => exact rhs_col _ _)
  rw [el, er]
  show x (ix2 p cc) * Scalar.select (IntOp.cmpi .eq
        (IntOp.addi (Scalar.muli (BitVec.ofNat 32 (i 2).val) 512#32) (BitVec.ofNat 32 (0 + cc.val)))
        (IntOp.addi (Scalar.muli (BitVec.ofNat 32 (i 1).val) 2048#32) (BitVec.ofNat 32 (0 + q.val))))
      (Ideal.ofBits .f32 0x00000000#32) (w (ix2 cc q)) = _
  rw [Nat.zero_add, Nat.zero_add,
    kernel_mask _ _ _ _ (i 2).isLt cc.isLt (i 1).isLt q.isLt, kernel_select]

end Cert.KernelIdeal.Acc

end
-- ==== Proof.IdealSum.lean ====
/-
  From the steps to the result array.

  The grid numbers its points row-major over (row block, column block, K step): point `t` is K step `t % 8` of
  column block `(t / 8) % 2` and row block `t / 16`. The output's staging buffer after point `t` holds the sum of the
  partial products of K steps `0 … t % 8` of that block (induction on `t`); the block is written back at the points with
  `t % 8 = 7`, which therefore write the full sum over k, the zero-diagonal product read through the block; and the
  four blocks written back tile the array.
-/
import proofs.«170368_g87514253623357_cont_sun_m_359_32_alg».proof.Proof.IdealValue

set_option maxRecDepth 16384

noncomputable section

namespace Cert.KernelIdeal.Acc

open Idealize.ShloMosaic Idealize.ShloMosaic.TcCoe Idealize.ShloMosaic.Tactic Idealize.SL.Sem
open Idealize.ShloMosaic.Pipeline (Dat)
open Idealize.ShloMosaic.ValueIdx
open Cert.KernelIdeal Cert.KernelIdeal.Gen Cert.ZeroDiag

variable (m : (ℓ : Loc nD τ sig) → Buf (Elt Ideal) ℓ) (ρ : Dev nD → PrngReg)

/-! ## The running block is a sum of partial products -/

/-- The partial product of the K step at grid point `n` (zero past the grid). -/
def part (c : Dev nD) (n : ℕ) : Vec Ideal S2048x2048 .f32 :=
  if h : n < cfg0.N then k0_pay1 (grid0.coords ⟨n, h⟩) (iblk m c 0 ⟨n, h⟩) (iblk m c 1 ⟨n, h⟩) else fun _ => (0 : EReal)

theorem part_of_lt (c : Dev nD) (n : ℕ) (h : n < cfg0.N) :
    part m c n = k0_pay1 (grid0.coords ⟨n, h⟩) (iblk m c 0 ⟨n, h⟩) (iblk m c 1 ⟨n, h⟩) := dif_pos h

/-- After point `n` the output's buffer holds the sum of the partial products of the K steps `0 … n % 8` of `n`'s block. -/
theorem accAt_eq (c : Dev nD) : ∀ (n : ℕ) (h : n < cfg0.N),
    accAt m c n h = fun y => ∑ a ∈ Finset.range (n % 8 + 1), part m c (8 * (n / 8) + a) y
  | 0, h => by
    rw [accAt_first m c ⟨0, h⟩ rfl, firstOut_eq]
    funext y
    rw [show (0 % 8 + 1) = 1 from rfl, Finset.sum_range_one, show 8 * (0 / 8) + 0 = 0 from rfl, part_of_lt m c 0 h]
    rfl
  | n + 1, h => by
    by_cases h0 : (n + 1) % 8 = 0
    · rw [accAt_first m c ⟨n + 1, h⟩ h0, firstOut_eq]
      funext y
      rw [h0, show (0 + 1) = 1 from rfl, Finset.sum_range_one, show 8 * ((n + 1) / 8) + 0 = n + 1 by omega, part_of_lt m c (n + 1) h]
      rfl
    · rw [accAt_later m c ⟨n + 1, h⟩ h0, laterOut_eq]
      have ih := accAt_eq c n (Nat.lt_of_succ_lt h)
      funext y
      have e1 : (n + 1) % 8 + 1 = (n % 8 + 1) + 1 := by omega
      have e2 : (n + 1) / 8 = n / 8 := by omega
      have e3 : 8 * (n / 8) + (n % 8 + 1) = n + 1 := by omega
      rw [e1, e2, Finset.sum_range_succ, e3, part_of_lt m c (n + 1) h]
      show (shapeCast S2048x2048 (accAt m c n _) shapeCasts_S2048x2048_S2048x2048) y + k0_pay1 (F := Ideal) _ _ _ y = _
      rw [shapeCast_self, ih]

/-! ## The grid's numbering, decided once -/

/-- Which blocks, which column block and which K step each grid point names. -/
theorem grid_facts : ∀ t : Fin cfg0.N,
    win0_0.index t (0 : Fin 2) = t.val / 16 ∧ win0_0.index t (1 : Fin 2) = t.val % 8
    ∧ win0_1.index t (0 : Fin 2) = t.val % 8 ∧ win0_1.index t (1 : Fin 2) = (t.val / 8) % 2
    ∧ win0_2.index t (0 : Fin 2) = t.val / 16 ∧ win0_2.index t (1 : Fin 2) = (t.val / 8) % 2
    ∧ (grid0.coords t 1).val = (t.val / 8) % 2 ∧ (grid0.coords t 2).val = t.val % 8 :=
  (by decide +kernel : ∀ t : Fin grid0.N, _)

/-- The two argument arrays as matrices. -/
abbrev argX (c : Dev nD) : Mat := m ((c : Thread nD τ).loc main_arg0)
abbrev argW (c : Dev nD) : Mat := m ((c : Thread nD τ).loc main_arg1)

/-- The partial product at grid point `n`, at (p, q) of the block, over the argument arrays: the 512 terms of K block
    `n % 8` of the zero-diagonal product at row `2048 · (n / 16) + p` and column `2048 · ((n / 8) % 2) + q`. -/
theorem part_apply (c : Dev nD) (n : Fin cfg0.N) (p q : Fin 2048) (R J : Fin 4096) (a : Fin 8)
    (hR : R.val = (n.val / 16) * 2048 + p.val) (hJ : J.val = ((n.val / 8) % 2) * 2048 + q.val) (ha : a.val = n.val % 8) :
    part m c n.val (ix2 p q) = ∑ cc : Fin 512, argX m c (ix2 R (kpos a cc)) * offDiag (argW m c) (kpos a cc) J := by
  obtain ⟨g0, g1, g2, g3, g4, g5, g6, g7⟩ := grid_facts n
  rw [part_of_lt m c n.val n.isLt, pay1_apply]
  refine Finset.sum_congr rfl fun cc _ => ?_
  have ex : iblk m c 0 n (ix2 p cc) = argX m c (ix2 R (kpos a cc)) := by
    show V m c main_arg0 (((cfg0.win 0).blk n).view.emb (ix2 p cc)) = m ((c : Thread nD τ).loc main_arg0) (ix2 R (kpos a cc))
    refine congrArg (m ((c : Thread nD τ).loc main_arg0)) (funext fun d => Fin.ext ?_)
    match d with
    | ⟨0, _⟩ => show win0_0.index n (0 : Fin 2) * 2048 + 1 * p.val = R.val; rw [g0, hR]; omega
    | ⟨1, _⟩ => show win0_0.index n (1 : Fin 2) * 512 + 1 * cc.val = 512 * a.val + cc.val; rw [g1, ha]; omega
  have ew : iblk m c 1 n (ix2 cc q) = argW m c (ix2 (kpos a cc) J) := by
    show V m c main_arg1 (((cfg0.win 1).blk n).view.emb (ix2 cc q)) = m ((c : Thread nD τ).loc main_arg1) (ix2 (kpos a cc) J)
    refine congrArg (m ((c : Thread nD τ).loc main_arg1)) (funext fun d => Fin.ext ?_)
    match d with
    | ⟨0, _⟩ => show win0_1.index n (0 : Fin 2) * 512 + 1 * cc.val = 512 * a.val + cc.val; rw [g2, ha]; omega
    | ⟨1, _⟩ => show win0_1.index n (1 : Fin 2) * 2048 + 1 * q.val = J.val; rw [g3, hJ]; omega
  rw [ex, ew]
  congr 1
  unfold offDiag
  refine if_congr ?_ rfl rfl
  show 512 * (grid0.coords n 2).val + cc.val = 2048 * (grid0.coords n 1).val + q.val ↔ 512 * a.val + cc.val = J.val
  rw [g6, g7, hJ, ha]
  constructor <;> intro h <;> omega

/-! ## Blocks to the array -/

/-- The result array the kernel ends with. -/
abbrev result (c : Dev nD) : Buf (Elt Ideal) ((c : Thread nD τ).loc main_v0) := prod (argX m c) (argW m c)

/-- What a write-back point writes is its block of the zero-diagonal product. -/
theorem flushed_eq (c : Dev nD) (t : Fin cfg0.N) (hf : (cfg0.win 2).flush t = true) :
    (dats m 0 c).flushed 2 t = ((cfg0.win 2).blk t).view.read (Elt Ideal) (result m c) := by
  have hN : t.val < 32 := lt_of_lt_of_eq t.isLt (show cfg0.N = 32 from N_0)
  have h7 : t.val % 8 = 7 := (flush0_2 t).mp hf
  obtain ⟨g0, g1, g2, g3, g4, g5, g6, g7⟩ := grid_facts t
  show (cfg0.win 2).cut (grid0.coords t) ((dats m 0 c).after 2 t) = _
  rw [after_o, accAt_eq]
  funext y
  obtain ⟨p, q, rfl⟩ : ∃ (p q : Fin 2048), y = ix2 p q := ⟨y 0, y 1, eq_ix2 y⟩
  let R : Fin 4096 := ⟨(t.val / 16) * 2048 + p.val, by have := p.isLt; omega⟩
  let J : Fin 4096 := ⟨((t.val / 8) % 2) * 2048 + q.val, by have := q.isLt; omega⟩
  have eidx : ((cfg0.win 2).blk t).view.emb (ix2 p q) = ix2 R J := by
    funext d; apply Fin.ext
    match d with
    | ⟨0, _⟩ => show win0_2.index t (0 : Fin 2) * 2048 + 1 * p.val = (t.val / 16) * 2048 + p.val; rw [g4]; omega
    | ⟨1, _⟩ => show win0_2.index t (1 : Fin 2) * 2048 + 1 * q.val = ((t.val / 8) % 2) * 2048 + q.val; rw [g5]; omega
  show ∑ a ∈ Finset.range (t.val % 8 + 1), part m c (8 * (t.val / 8) + a) (ix2 p q) = result m c (((cfg0.win 2).blk t).view.emb (ix2 p q))
  rw [eidx, h7, Finset.sum_range]
  show _ = prod (argX m c) (argW m c) (ix2 R J)
  rw [prod_ix2, prodAt_blocks]
  refine Finset.sum_congr rfl fun a _ => ?_
  have hn : 8 * (t.val / 8) + a.val < cfg0.N :=
    lt_of_lt_of_eq (by have := a.isLt; omega : 8 * (t.val / 8) + a.val < 32) N_0.symm
  exact part_apply m c ⟨8 * (t.val / 8) + a.val, hn⟩ p q R J a
    (by show (t.val / 16) * 2048 + p.val = ((8 * (t.val / 8) + a.val) / 16) * 2048 + p.val; have := a.isLt; omega)
    (by show ((t.val / 8) % 2) * 2048 + q.val = (((8 * (t.val / 8) + a.val) / 8) % 2) * 2048 + q.val; have := a.isLt; omega)
    (by show a.val = (8 * (t.val / 8) + a.val) % 8; have := a.isLt; omega)

/-- An index of the array lies in point `t`'s block iff each coordinate lies in the block's range on its axis. -/
theorem mem_blk (t : Fin cfg0.N) (i : S4096x4096.Idx) :
    i ∈ ((cfg0.win 2).blk t).view.set ↔ ∀ a : Fin 2, win0_2.index t a * S2048x2048.size a ≤ (i a).val ∧ (i a).val < win0_2.index t a * S2048x2048.size a + S2048x2048.size a := by
  show i ∈ ((View.whole main_v0).slice (win0_2.rect t)).set ↔ _
  rw [View.set_slice_whole, Rect.mem_set_unit]
  exact Iff.rfl

/-- Every index of the result array lies in the block of some write-back point: the point of the last K step of its
    row block and column block. -/
theorem covered (i : S4096x4096.Idx) :
    ∃ t : Fin cfg0.N, (cfg0.win 2).flush t = true ∧ i ∈ ((cfg0.win 2).blk t).view.set := by
  have hi0 : (i 0).val < 4096 := (i 0).isLt
  have hi1 : (i 1).val < 4096 := (i 1).isLt
  have hlt : 8 * (2 * ((i 0).val / 2048) + (i 1).val / 2048) + 7 < cfg0.N :=
    lt_of_lt_of_eq (by omega : 8 * (2 * ((i 0).val / 2048) + (i 1).val / 2048) + 7 < 32) N_0.symm
  refine ⟨⟨8 * (2 * ((i 0).val / 2048) + (i 1).val / 2048) + 7, hlt⟩, (flush0_2 _).mpr (by show (8 * (2 * ((i 0).val / 2048) + (i 1).val / 2048) + 7) % 8 = 7; omega), ?_⟩
  obtain ⟨g0, g1, g2, g3, g4, g5, g6, g7⟩ := grid_facts ⟨8 * (2 * ((i 0).val / 2048) + (i 1).val / 2048) + 7, hlt⟩
  rw [mem_blk]
  intro a
  match a with
  | ⟨0, _⟩ =>
    show win0_2.index _ (0 : Fin 2) * 2048 ≤ (i 0).val ∧ (i 0).val < win0_2.index _ (0 : Fin 2) * 2048 + 2048
    rw [g4]; dsimp only; omega
  | ⟨1, _⟩ =>
    show win0_2.index _ (1 : Fin 2) * 2048 ≤ (i 1).val ∧ (i 1).val < win0_2.index _ (1 : Fin 2) * 2048 + 2048
    rw [g5]; dsimp only; omega

/-- So the result array ends holding the zero-diagonal product of the two argument arrays. -/
theorem final_o (c : Dev nD) : (dats m 0 c).arrAt 2 cfg0.N = result m c :=
  (dats m 0 c).arrAt_eq_of_cover 2 (result m c) (flushed_eq m c) covered

/-- The run, read: the result array at the zero-diagonal product, the arguments unchanged. -/
theorem run : θ_run defs (onTc (τ := τ) (main (F := Ideal))) ⟨m, fun _ => 0, ρ⟩ fun r => ∀ c : Dev nD,
      r.2.mem ((c : Thread nD τ).loc main_v0) = result m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨((h c).1 2).trans (final_o m c),
      ((h c).1 0).trans ((dats m 0 c).arrAt_in 0 rfl _), ((h c).1 1).trans ((dats m 0 c).arrAt_in 1 rfl _)⟩)
    (run_main m ρ)

end Cert.KernelIdeal.Acc

end
-- ==== Proof.RefValue.lean ====
/-
  The reference computes the zero-diagonal product.

  Its last operation is a matrix product of `x` with `W · (1 − I)`, the identity matrix built by comparing a row-number
  array with a column-number array. Read at an index (r, j) this is ∑ₖ x(r, k) · (W(k, j) · (1 − [k = j])), and the factor
  in brackets is the zero-diagonal weight for every extended real W(k, j).
-/
import proofs.«170368_g87514253623357_cont_sun_m_359_32_alg».proof.Proof.Gen.ReferenceIdeal.Read
import proofs.«170368_g87514253623357_cont_sun_m_359_32_alg».proof.Proof.ZeroDiagSpec

noncomputable section

namespace Cert.ReferenceIdeal.RefValue

open Idealize.ShloMosaic Idealize.ShloMosaic.ValueIdx
open Cert.ReferenceIdeal Cert.ReferenceIdeal.Read Cert.ZeroDiag

/-- The reference's result, as a function of its two arguments, is the zero-diagonal product. -/
theorem ref_eq_prod (X W : (⟨S4096x4096, .f32⟩ : BufTy).Contents (Elt Ideal)) :
    val_main_v9 (F := Ideal) X W = prod X W := by
  funext i
  obtain ⟨r, j, rfl⟩ : ∃ (r j : Fin 4096), i = ix2 r j := ⟨i 0, i 1, eq_ix2 i⟩
  rw [val_main_v9_apply, prod_ix2]
  unfold prodAt
  refine Finset.sum_congr rfl fun k _ => ?_
  have el : lidx_main_v9 (ix2 r j) k = ix2 r k :=
    funext fun a => Fin.ext (by match a with | ⟨0, _⟩ => rfl | ⟨1, _⟩ => rfl)
  have er : ridx_main_v9 (ix2 r j) k = ix2 k j :=
    funext fun a => Fin.ext (by match a with | ⟨0, _⟩ => rfl | ⟨1, _⟩ => rfl)
  rw [el, er]
  congr 1
  rw [val_main_v8_apply, val_main_v7_apply, val_main_v6_apply, val_main_cst_apply, val_main_v5_apply, val_main_v4_apply,
    val_main_v3_apply, val_main_v0_apply, val_main_v2_apply, val_main_c_apply, val_main_v1_apply]
  show W (ix2 k j) * (Ideal.ofBits .f32 0x3F800000#32
      - FloatOps.uitofp (F := Ideal) .f32 (IntOp.cmpi .eq (IntOp.addi (BitVec.ofNat 32 k.val) 0#32) (BitVec.ofNat 32 j.val))) = _
  rw [host_mask _ _ k.isLt j.isLt, host_factor]
  rfl

end Cert.ReferenceIdeal.RefValue

end
-- ==== Proof.lean ====
/-
  The zero-diagonal matrix product: a tiled kernel against `x @ (W · (1 − I))`.

  Both programs compute, at row r and column j,   ∑ₖ x(r, k) · W°(k, j),   W° = W with its diagonal zeroed.
  The reference builds W° as W · (1 − I) and takes one matrix product. The kernel walks a (2, 2, 8) grid: for each
  2048 × 2048 block of the result it takes eight K steps of 512, masking its W tile where the global row number
  equals the global column number, storing the first partial product and adding the seven later ones into the
  block, which is written back after the eighth.

  * The three frames: each kernel program's body meets the pipeline's obligation at every grid point (the two kinds of
    point, first and later K step, each run once), so the program runs to its end and leaves its arguments unchanged;
    the reference is a straight line of host operations.
  * The sanctioned idealization drops two round trips through the narrower float format, which are the identity on
    extended reals.
  * At the ideal instance the eight partial sums add up to the one sum over k (addition of extended reals is commutative
    and associative), and both masks give W°: comparing numbers below 2³² as words is comparing the numbers, and
    w · (1 − 1) = 0, w · (1 − 0) = w for every extended real w. No finiteness of the inputs is used.
-/
import proofs.«170368_g87514253623357_cont_sun_m_359_32_alg».proof.Defs
import proofs.«170368_g87514253623357_cont_sun_m_359_32_alg».proof.Proof.Gen.Kernel
import proofs.«170368_g87514253623357_cont_sun_m_359_32_alg».proof.Proof.Gen.KernelIdeal
import proofs.«170368_g87514253623357_cont_sun_m_359_32_alg».proof.Proof.Gen.ReferenceIdeal
import proofs.«170368_g87514253623357_cont_sun_m_359_32_alg».proof.Proof.Gen.Pre_finite_inputs
import proofs.«170368_g87514253623357_cont_sun_m_359_32_alg».proof.Proof.Gen.ReferenceIdeal.Run
import proofs.«170368_g87514253623357_cont_sun_m_359_32_alg».proof.Proof.Gen.ReferenceIdeal.Read
import proofs.«170368_g87514253623357_cont_sun_m_359_32_alg».proof.Proof.BitsFrame
import proofs.«170368_g87514253623357_cont_sun_m_359_32_alg».proof.Proof.IdealSum
import proofs.«170368_g87514253623357_cont_sun_m_359_32_alg».proof.Proof.RefValue
import Idealize.ShloMosaic.Adequacy
import Idealize.ShloMosaic.Init

noncomputable section

namespace Cert.Proof

open Idealize.ShloMosaic Idealize.SL.Sem

/-- The word-level kernel runs to its end and leaves its arguments unchanged. -/
theorem frame_k : Cert.frame_Kernel := fun m ρ _ => Cert.Kernel.Acc.frame m ρ

/-- So does the idealized kernel. -/
theorem frame_ki : Cert.frame_KernelIdeal := fun m ρ _ => Cert.KernelIdeal.Acc.frame m ρ

/-- The reference is a straight line of host operations: its run, the result forgotten. -/
theorem frame_ri : Cert.frame_ReferenceIdeal := fun m ρ _ =>
  (θ_run Cert.ReferenceIdeal.defs _ _).mono (fun _ h c => (h c).2) (Cert.ReferenceIdeal.Value.run (F := Ideal) m ρ)

/-- The two rewrites of the idealization: a round trip through the narrower format is the identity on extended reals. -/
theorem preserves : Cert.preserves_Kernel_KernelIdeal :=
  ⟨IdealRules.truncf_extf.statement _ _ _, IdealRules.truncf_extf.statement _ _ _⟩

/-- From arguments that agree, the kernel's result array and the reference's both end at the zero-diagonal product. -/
theorem algebraic : Cert.algebraic_KernelIdeal_ReferenceIdeal := by
  intro m ρ m' ρ' _ hagree
  refine ⟨fun c => Cert.KernelIdeal.Acc.result m c, Cert.KernelIdeal.Acc.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v9_eq, Cert.ReferenceIdeal.RefValue.ref_eq_prod, (hagree c).1, (hagree c).2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
